-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256 : Shape := ⟨1, ![256]⟩
abbrev S200000x512 : Shape := ⟨2, ![200000, 512]⟩
abbrev S500x512 : Shape := ⟨2, ![500, 512]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S500x512 : S_.BroadcastsInDim S500x512 (![] : Fin 0 → Fin S500x512.rank)
  reducesTo_S500x512_S_d0_1 : S500x512.ReducesTo [0, 1] S_

variable [Facts]

def fn {F : FTy → Type} [FloatOps F] (main_arg0 : IVec S256 32) (main_arg1 : IVec S256 32) (main_arg2 : IVec S256 32) (main_arg3 : IVec S256 32) (main_arg4 : FVec F S200000x512 .f32) (main_arg5 : FVec F S500x512 .f32) : IVec S_ 1 :=
  let main_v0 : FVec F S200000x512 .f32 := Host.absf main_arg4
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S500x512 .f32 := Host.absf main_arg5
  let main_cst_0 : FVec F S_ .f32 := constant S_ .f32 0x7F800000#32
  let main_v5 : FVec F S500x512 .f32 := broadcastInDim S500x512 ![] bcast_S_S500x512 main_cst_0
  let main_v6 : IVec S500x512 1 := cmpf .olt main_v4 main_v5
  let main_c_1 : IVec S_ 1 := constantI S_ 1 1#1
  let main_v7 : IVec S_ 1 := (fun x v => Host.reduce IntOp.andi x v reducesTo_S500x512_S_d0_1 h_S_) main_v6 main_c_1
  let main_v8 : IVec S_ 1 := andi main_v3 main_v7
  main_v8
-- ==== Kernel.lean ====
abbrev S256 : Shape := ⟨1, ![256]⟩
abbrev S200000x512 : Shape := ⟨2, ![200000, 512]⟩
abbrev S500x512 : Shape := ⟨2, ![500, 512]⟩
abbrev S_ : Shape := ⟨0, ![]⟩
abbrev S256x1 : Shape := ⟨2, ![256, 1]⟩
abbrev S256x512 : Shape := ⟨2, ![256, 512]⟩
abbrev S256x200000 : Shape := ⟨2, ![256, 200000]⟩
abbrev S3072x512 : Shape := ⟨2, ![3072, 512]⟩
abbrev S256x3072 : Shape := ⟨2, ![256, 3072]⟩
abbrev S3072 : Shape := ⟨1, ![3072]⟩
abbrev S1x3072 : Shape := ⟨2, ![1, 3072]⟩

abbrev nBuf : Space → Nat
  | .hbm => 31
  | .vmem => 6
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S256, .i32⟩
  | .hbm, ⟨3, _⟩ => ⟨S256, .i32⟩
  | .hbm, ⟨4, _⟩ => ⟨S200000x512, .f32⟩
  | .hbm, ⟨5, _⟩ => ⟨S500x512, .f32⟩
  | .hbm, ⟨6, _⟩ => ⟨S_, .i32⟩
  | .hbm, ⟨7, _⟩ => ⟨S256, .i32⟩
  | .hbm, ⟨8, _⟩ => ⟨S256, .i1⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S256x1, .i32⟩
  | .hbm, ⟨14, _⟩ => ⟨S256x512, .f32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S256x1, .i32⟩
  | .hbm, ⟨23, _⟩ => ⟨S256x512, .f32⟩
  | .hbm, ⟨24, _⟩ => ⟨S256x512, .f32⟩
  | .hbm, ⟨25, _⟩ => ⟨S256x512, .bf16⟩
  | .hbm, ⟨26, _⟩ => ⟨S256x512, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S256x200000, .f32⟩
  | .local _ .vmem, ⟨0, _⟩ => ⟨S256x512, .bf16⟩
  | .local _ .vmem, ⟨1, _⟩ => ⟨S256x1, .f32⟩
  | .local _ .vmem, ⟨2, _⟩ => ⟨S3072x512, .f32⟩
  | .local _ .vmem, ⟨3, _⟩ => ⟨S3072x512, .f32⟩
  | .local _ .vmem, ⟨4, _⟩ => ⟨S256x3072, .f32⟩
  | .local _ .vmem, ⟨5, _⟩ => ⟨S256x3072, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  bitsLt_bf16_f32 : FTy.bits .bf16 < FTy.bits .f32
  reducesTo_S256x512_S256_d1 : S256x512.ReducesTo [1] S256
  h_S_ : 0 < S_.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S3072x512_S3072x512_0_0 : ∀ a, (![0, 0] : Fin 2 → Nat) a + S3072x512.size a ≤ S3072x512.size a
  h_S3072x512 : 0 < S3072x512.numel
  reduces_S3072x512_S3072 : S3072x512.Reduces [1] S3072
  broadcasts_S256x1_S256x3072 : S256x1.Broadcasts S256x3072
  shapeCasts_S3072_S1x3072 : S3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  gather_S200000x512_S256x1_S256x512_1_0_n_n_0_1_1512_wf : GatherDims.WF S200000x512 S256x1 S256x512 [1] [0] [] [0] [] 1 ![1, 512]
  gather_S500x512_S256x1_S256x512_1_0_n_n_0_1_1512_wf : GatherDims.WF S500x512 S256x1 S256x512 [1] [0] [] [0] [] 1 ![1, 512]
  dot_S256x512_S3072x512_S256x3072_1_1_0_0_n_n_wf : DotDims.WF S256x512 S3072x512 S256x3072 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .bf16 = 32 ∨ (Rect.block (s := S256x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S3072x512.size a < S200000x512.size a
  hwx0_2 : ∀ i : grid0.Coords, EltTy.bits .f32 = 32 ∨ (Rect.unit (s := S200000x512) (fun a => cc0_transform_2 i a * S3072x512.size a) (fun a => (Pipeline.Clip.of (cc0_transform_2 i a) (S3072x512.size a) (S200000x512.size a)).extent (S3072x512.size a)) fun a => Pipeline.Clip.inb (Pipeline.Clip.ok_of (hstart0_2 i a))).WholeWords (EltTy.packing .f32)
  hwxs0_2 : ∀ i : grid0.Coords, EltTy.bits .f32 = 32 ∨ (Rect.unit (s := S3072x512) (fun _ => 0) (fun a => (Pipeline.Clip.of (cc0_transform_2 i a) (S3072x512.size a) (S200000x512.size a)).extent (S3072x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x3072.size a < S256x200000.size a
  hwx0_3 : ∀ i : grid0.Coords, EltTy.bits .f32 = 32 ∨ (Rect.unit (s := S256x200000) (fun a => cc0_transform_3 i a * S256x3072.size a) (fun a => (Pipeline.Clip.of (cc0_transform_3 i a) (S256x3072.size a) (S256x200000.size a)).extent (S256x3072.size a)) fun a => Pipeline.Clip.inb (Pipeline.Clip.ok_of (hstart0_3 i a))).WholeWords (EltTy.packing .f32)
  hwxs0_3 : ∀ i : grid0.Coords, EltTy.bits .f32 = 32 ∨ (Rect.unit (s := S256x3072) (fun _ => 0) (fun a => (Pipeline.Clip.of (cc0_transform_3 i a) (S256x3072.size a) (S256x200000.size a)).extent (S256x3072.size a)) fun a => (Nat.zero_add _).trans_le (Pipeline.Clip.extent_le (Pipeline.Clip.ok_of (hstart0_3 i a)))).WholeWords (EltTy.packing .f32)

variable [Facts₀]

def gather_S200000x512_S256x1_S256x512_1_0_n_n_0_1_1512 : GatherDims S200000x512 S256x1 S256x512 where
  offsetDims := [1]
  collapsedSliceDims := [0]
  operandBatchingDims := []
  startIndicesBatchingDims := []
  startIndexMap := [0]
  indexVectorDim := 1
  sliceSizes := ![1, 512]
  wf := gather_S200000x512_S256x1_S256x512_1_0_n_n_0_1_1512_wf
def gather_S500x512_S256x1_S256x512_1_0_n_n_0_1_1512 : GatherDims S500x512 S256x1 S256x512 where
  offsetDims := [1]
  collapsedSliceDims := [0]
  operandBatchingDims := []
  startIndicesBatchingDims := []
  startIndexMap := [0]
  indexVectorDim := 1
  sliceSizes := ![1, 512]
  wf := gather_S500x512_S256x1_S256x512_1_0_n_n_0_1_1512_wf
def dot_S256x512_S3072x512_S256x3072_1_1_0_0_n_n : DotDims S256x512 S3072x512 S256x3072 where
  lhsContracting := [1]
  rhsContracting := [1]
  lhsNonContracting := [0]
  rhsNonContracting := [0]
  lhsBatch := []
  rhsBatch := []
  wf := dot_S256x512_S3072x512_S256x3072_1_1_0_0_n_n_wf

abbrev win0_0 : Pipeline.Window sig grid0 :=
  Pipeline.Window.ofSpec (Memref.whole main_v15) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg4) S3072x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v19) S256x3072.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256 : Shape := ⟨1, ![256]⟩
abbrev S200000x512 : Shape := ⟨2, ![200000, 512]⟩
abbrev S500x512 : Shape := ⟨2, ![500, 512]⟩
abbrev S_ : Shape := ⟨0, ![]⟩
abbrev S256x1 : Shape := ⟨2, ![256, 1]⟩
abbrev S256x512 : Shape := ⟨2, ![256, 512]⟩
abbrev S200000 : Shape := ⟨1, ![200000]⟩
abbrev S256x200000 : Shape := ⟨2, ![256, 200000]⟩
abbrev S1x200000 : Shape := ⟨2, ![1, 200000]⟩

abbrev nBuf : Space → Nat
  | .hbm => 46
  | .vmem => 0
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S256, .i32⟩
  | .hbm, ⟨3, _⟩ => ⟨S256, .i32⟩
  | .hbm, ⟨4, _⟩ => ⟨S200000x512, .f32⟩
  | .hbm, ⟨5, _⟩ => ⟨S500x512, .f32⟩
  | .hbm, ⟨6, _⟩ => ⟨S_, .i32⟩
  | .hbm, ⟨7, _⟩ => ⟨S256, .i32⟩
  | .hbm, ⟨8, _⟩ => ⟨S256, .i1⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S256x1, .i32⟩
  | .hbm, ⟨14, _⟩ => ⟨S256x512, .f32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S256x1, .i32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S200000x512, .f32⟩
  | .hbm, ⟨30, _⟩ => ⟨S_, .f32⟩
  | .hbm, ⟨31, _⟩ => ⟨S200000, .f32⟩
  | .hbm, ⟨32, _⟩ => ⟨S256x200000, .f32⟩
  | .hbm, ⟨33, _⟩ => ⟨S_, .f32⟩
  | .hbm, ⟨34, _⟩ => ⟨S256x200000, .f32⟩
  | .hbm, ⟨35, _⟩ => ⟨S256x200000, .f32⟩
  | .hbm, ⟨36, _⟩ => ⟨S256x200000, .f32⟩
  | .hbm, ⟨37, _⟩ => ⟨S256x200000, .f32⟩
  | .hbm, ⟨38, _⟩ => ⟨S1x200000, .f32⟩
  | .hbm, ⟨39, _⟩ => ⟨S256x200000, .f32⟩
  | .hbm, ⟨40, _⟩ => ⟨S256x200000, .f32⟩
  | .hbm, ⟨41, _⟩ => ⟨S_, .f32⟩
  | .hbm, ⟨42, _⟩ => ⟨S256x200000, .f32⟩
  | .hbm, ⟨43, _⟩ => ⟨S256x200000, .f32⟩
  | .hbm, ⟨44, _⟩ => ⟨S256x200000, .f32⟩
  | .hbm, ⟨45, _⟩ => ⟨S256x200000, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  reducesTo_S256x512_S256_d1 : S256x512.ReducesTo [1] S256
  h_S_ : 0 < S_.numel
  reducesTo_S200000x512_S200000_d1 : S200000x512.ReducesTo [1] S200000
  bcast_S_S256x200000 : S_.BroadcastsInDim S256x200000 (![] : Fin 0 → Fin S256x200000.rank)
  bcast_S256x1_S256x200000_0_1 : S256x1.BroadcastsInDim S256x200000 (![0, 1] : Fin 2 → Fin S256x200000.rank)
  bcast_S200000_S1x200000_1 : S200000.BroadcastsInDim S1x200000 (![1] : Fin 1 → Fin S1x200000.rank)
  bcast_S1x200000_S256x200000_0_1 : S1x200000.BroadcastsInDim S256x200000 (![0, 1] : Fin 2 → Fin S256x200000.rank)
  gather_S200000x512_S256x1_S256x512_1_0_n_n_0_1_1512_wf : GatherDims.WF S200000x512 S256x1 S256x512 [1] [0] [] [0] [] 1 ![1, 512]
  gather_S500x512_S256x1_S256x512_1_0_n_n_0_1_1512_wf : GatherDims.WF S500x512 S256x1 S256x512 [1] [0] [] [0] [] 1 ![1, 512]
  dot_S256x512_S200000x512_S256x200000_1_1_0_0_n_n_wf : DotDims.WF S256x512 S200000x512 S256x200000 [1] [1] [0] [0] [] []

variable [Facts₀]

def gather_S200000x512_S256x1_S256x512_1_0_n_n_0_1_1512 : GatherDims S200000x512 S256x1 S256x512 where
  offsetDims := [1]
  collapsedSliceDims := [0]
  operandBatchingDims := []
  startIndicesBatchingDims := []
  startIndexMap := [0]
  indexVectorDim := 1
  sliceSizes := ![1, 512]
  wf := gather_S200000x512_S256x1_S256x512_1_0_n_n_0_1_1512_wf
def gather_S500x512_S256x1_S256x512_1_0_n_n_0_1_1512 : GatherDims S500x512 S256x1 S256x512 where
  offsetDims := [1]
  collapsedSliceDims := [0]
  operandBatchingDims := []
  startIndicesBatchingDims := []
  startIndexMap := [0]
  indexVectorDim := 1
  sliceSizes := ![1, 512]
  wf := gather_S500x512_S256x1_S256x512_1_0_n_n_0_1_1512_wf
def dot_S256x512_S200000x512_S256x200000_1_1_0_0_n_n : DotDims S256x512 S200000x512 S256x200000 where
  lhsContracting := [1]
  rhsContracting := [1]
  lhsNonContracting := [0]
  rhsNonContracting := [0]
  lhsBatch := []
  rhsBatch := []
  wf := dot_S256x512_S200000x512_S256x200000_1_1_0_0_n_n_wf

class Facts : Prop extends Facts₀ where

variable [Facts]
-- ==== Proof.TileWord.lean ====
/-
  One grid step of the scoring kernel, as a triple on whole staging buffers.

  A step holds the query tile q (256 x 512), the query norms n (256 x 1) and a tile e of 3072 entity rows
  (3072 x 512), and stores one tile of scores (256 x 3072):
      score b j = -sqrt (max (n b - 2 * <q b, e j> + <e j, e j>) eps).
  The three inputs are loaded whole and the result is stored whole, so after the step the input buffers hold
  what they held and the score buffer holds the store's payload of the three loaded tiles (`scoreTile`, and
  `scoreTile_eq`: that is the step's arithmetic `k0_pay1` of the tiles themselves). Stated for any float
  instance: nothing here looks inside the arithmetic.
-/
import proofs.«130269_j11879879541069_2_alg».proof.Proof.Gen.Kernel.Frame
import proofs.«130269_j11879879541069_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles of the step's three loads and its one store. -/
abbrev rQ : Rect S256x512 := Rect.unit (s := S256x512) ![0, 0] S256x512.size inb_S256x512_S256x512_0_0
abbrev rN : Rect S256x1 := Rect.unit (s := S256x1) ![0, 0] S256x1.size inb_S256x1_S256x1_0_0
abbrev rE : Rect S3072x512 := Rect.unit (s := S3072x512) ![0, 0] S3072x512.size inb_S3072x512_S3072x512_0_0
abbrev rS : Rect S256x3072 := Rect.unit (s := S256x3072) ![0, 0] S256x3072.size inb_S256x3072_S256x3072_0_0

theorem zero_offsets : (![0, 0] : Fin 2 → Nat) = fun _ => 0 := funext fun a => by fin_cases a <;> rfl

/-- What the score buffer holds after a step that found the tiles `q`, `n`, `e`: its one store, as a piece list. -/
def scoreTile (q : Vec F S256x512 .bf16) (n : Vec F S256x1 .f32) (e : Vec F S3072x512 .f32) : Vec F S256x3072 .f32 :=
  View.canon [⟨rS, k0_pay1 (View.ld q rQ) (View.ld n rN) (View.ld e rE)⟩]

/-- The one store covers the score buffer. -/
theorem scoreTile_cover (p0 : Vec F S256x3072 .f32) (y : S256x3072.Idx) :
    ∃ pc ∈ ([⟨rS, p0⟩] : List (View.Piece (Elt F) S256x3072 .f32)), y ∈ pc.1.set :=
  ⟨_, List.mem_singleton_self _, View.mem_set_unit_zero zero_offsets inb_S256x3072_S256x3072_0_0 y⟩

/-- The score tile is the step's arithmetic of the three tiles: whole loads read the contents, a whole store
    leaves its payload. -/
theorem scoreTile_eq (q : Vec F S256x512 .bf16) (n : Vec F S256x1 .f32) (e : Vec F S3072x512 .f32) :
    scoreTile q n e = k0_pay1 q n e := by
  unfold scoreTile
  rw [View.canon_unit_zero zero_offsets, View.ld_unit_zero (S := S256x512) zero_offsets,
    View.ld_unit_zero (S := S256x1) zero_offsets, View.ld_unit_zero (S := S3072x512) zero_offsets]

set_option maxHeartbeats 1000000 in
/-- The step on whole staging buffers: the inputs' at `q`, `n`, `e`, the score buffer at anything; it ends with
    the inputs' as they were and the score buffer at `scoreTile q n e`. -/
theorem step (c : Dev nD) (E : Set ℕ) (i : grid0.Coords)
    (arg1 : Memref sig .tc .vmem S256x512 .bf16) (harg1 : arg1.IsWhole)
    (arg2 : Memref sig .tc .vmem S256x1 .f32) (harg2 : arg2.IsWhole)
    (arg3 : Memref sig .tc .vmem S3072x512 .f32) (harg3 : arg3.IsWhole)
    (arg4 : Memref sig .tc .vmem S256x3072 .f32) (harg4 : arg4.IsWhole)
    (q : Vec F S256x512 .bf16) (n : Vec F S256x1 .f32) (e : Vec F S3072x512 .f32) (K : PUnit → sProp 𝕄) :
    iprop(owns (c : Thread nD τ) arg1 fullShare q ∗ owns (c : Thread nD τ) arg2 fullShare n
        ∗ owns (c : Thread nD τ) arg3 fullShare e ∗ (∃ d, owns (c : Thread nD τ) arg4 fullShare d)
        ∗ (iprop(owns (c : Thread nD τ) arg1 fullShare q ∗ owns (c : Thread nD τ) arg2 fullShare n
            ∗ owns (c : Thread nD τ) arg3 fullShare e ∗ owns (c : Thread nD τ) arg4 fullShare (scoreTile q n e)) -∗ K ⟨⟩))
      ⊢ wp frame (wpE (defs₀ (F := F)) Variants.none c none) E
          (cc0__transe_kernel i arg1 harg1 arg2 harg2 arg3 harg3 arg4 harg4) K := by
  simp only [cc0__transe_kernel_eq_skeleton]; unfold cc0__transe_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (scoreTile_cover _)

end Cert.Kernel.Tile

end
-- ==== Proof.FrameWord.lean ====
/-
  The scoring kernel runs to the end, faults nowhere and leaves its six argument arrays as they were.

  The grid has 66 steps over tiles of 3072 entity rows; 66 * 3072 = 202752 exceeds the table's 200000 rows, so
  the last step's entity tile overhangs the table: its fetch fills the first 320 rows (200000 - 65 * 3072) of the staging buffer and
  the other rows hold words nothing names. The step computes with them all the same (no operation of the step can
  fault) and the cut write-back drops the score columns computed from them. For this claim nothing needs to be
  said about what the score buffer holds: the proof data forgets that window, keeps the query tile and the query
  norms at their (resident) blocks, and keeps the entity buffer at its fetched block filled out with whatever it
  held. The entity table is read back unchanged because the pipeline only ever reads it.
-/
import proofs.«130269_j11879879541069_2_alg».proof.Proof.TileWord

set_option maxRecDepth 16384

noncomputable section

namespace Cert.Kernel.Run

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents after a step are left unnamed: the scores'. -/
def forgets : Fin 4 → Bool := fun w => w.val == 3

/-- The entity tile of step `t` as the fetch reads it (its rows inside the table), filled out to the whole buffer
    with the zero word: a stand-in the obligation never compares past the table's end. -/
def entTile (c : Dev nD) (t : Fin cfg0.N) : S3072x512.Idx → Elt F .f32 :=
  win0_2.fill (grid0.coords t) (fun _ => Scalar.ofBits .f32 0#32) (iblk m c 2 t)

/-- The proof data on core `c`: the arrays as the region finds them; after a step the query tile and the norms at
    their blocks, the entity buffer at `entTile`, the scores' unnamed; the class invariant; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => entTile m c t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = entTile m c t := by dsimp only [dats]

/-- The resident tiles are found at their blocks at every step, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- The entity buffer is fetched at every step: its rows inside the table, `d` on the others. -/
theorem before_2 (c : Dev nD) (t : Fin cfg0.N) (d) :
    (dats m 0 c).before 2 t d = win0_2.fill (grid0.coords t) d (iblk m c 2 t) := by
  unfold Dat.before; rw [if_pos (fetch0_2 t)]; rfl

/-- What a step is called with at grid point `t`, window by window, -/
def stepPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it hands back: the entity buffer stated on its rows inside the table only, the scores' at anything. -/
def stepPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t))))
    ∗ (∃ X, owns (c : Thread nD τ) (st0_3 t) fullShare X))

/-- The step at any grid point. -/
theorem step_at (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩, ⟨%d3, H3⟩⟩
  iapply (step (F := F) c Set.univ (grid0.coords t) _ _ _ _ _ _ _ _ (iblk m c 0 t) (iblk m c 1 t)
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    have h : win0_2.cut (grid0.coords t) (entTile m c t) = iblk m c 2 t := win0_2.cut_fill _ _ _
    rw [h]; iexact H2
  · iexists _; iexact H3

/-- The step at every grid point, the scores' buffer handed over and taken back at anything. -/
theorem body_obligation (c : Dev nD) :
    BodyObligationLoose (dats (F := F) m 0 c) (defs₀ (F := F)) Variants.none () Set.univ forgets := fun t => by
  rw [bigSep_W0, bigSep_W0]
  exact step_at m c t

set_option backward.isDefEq.respectTransparency.types false in
/-- Every weakly fair execution of @main terminates; every input array of the pipeline ends unchanged and every
    other unscoped buffer as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame: the six argument arrays end as launched — the entity table as a staged input the pipeline only
    reads, the five others as buffers the region never touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Eq.mp (congrFun (((dats m 0 c).toRForget forgets).ArrAt_in 2 rfl _) _) ((h c).1 2)).trans
        ((A_eq m c 2).trans (V_main_arg4 m c)),
      ((h c).2 main_arg5 (Pipeline.mem_restRefs_of main_arg5 (by decide) (by decide))).trans (V_main_arg5 m c)⟩)
    (run_main m ρ)

end Cert.Kernel.Run

end
-- ==== Proof.TileIdeal.lean ====
/-
  One grid step of the scoring kernel, as a triple on whole staging buffers.

  A step holds the query tile q (256 x 512), the query norms n (256 x 1) and a tile e of 3072 entity rows
  (3072 x 512), and stores one tile of scores (256 x 3072):
      score b j = -sqrt (max (n b - 2 * <q b, e j> + <e j, e j>) eps).
  The three inputs are loaded whole and the result is stored whole, so after the step the input buffers hold
  what they held and the score buffer holds the store's payload of the three loaded tiles (`scoreTile`, and
  `scoreTile_eq`: that is the step's arithmetic `k0_pay1` of the tiles themselves). Stated for any float
  instance: nothing here looks inside the arithmetic.
-/
import proofs.«130269_j11879879541069_2_alg».proof.Proof.Gen.KernelIdeal.Frame
import proofs.«130269_j11879879541069_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles of the step's three loads and its one store. -/
abbrev rQ : Rect S256x512 := Rect.unit (s := S256x512) ![0, 0] S256x512.size inb_S256x512_S256x512_0_0
abbrev rN : Rect S256x1 := Rect.unit (s := S256x1) ![0, 0] S256x1.size inb_S256x1_S256x1_0_0
abbrev rE : Rect S3072x512 := Rect.unit (s := S3072x512) ![0, 0] S3072x512.size inb_S3072x512_S3072x512_0_0
abbrev rS : Rect S256x3072 := Rect.unit (s := S256x3072) ![0, 0] S256x3072.size inb_S256x3072_S256x3072_0_0

theorem zero_offsets : (![0, 0] : Fin 2 → Nat) = fun _ => 0 := funext fun a => by fin_cases a <;> rfl

/-- What the score buffer holds after a step that found the tiles `q`, `n`, `e`: its one store, as a piece list. -/
def scoreTile (q : Vec F S256x512 .bf16) (n : Vec F S256x1 .f32) (e : Vec F S3072x512 .f32) : Vec F S256x3072 .f32 :=
  View.canon [⟨rS, k0_pay1 (View.ld q rQ) (View.ld n rN) (View.ld e rE)⟩]

/-- The one store covers the score buffer. -/
theorem scoreTile_cover (p0 : Vec F S256x3072 .f32) (y : S256x3072.Idx) :
    ∃ pc ∈ ([⟨rS, p0⟩] : List (View.Piece (Elt F) S256x3072 .f32)), y ∈ pc.1.set :=
  ⟨_, List.mem_singleton_self _, View.mem_set_unit_zero zero_offsets inb_S256x3072_S256x3072_0_0 y⟩

/-- The score tile is the step's arithmetic of the three tiles: whole loads read the contents, a whole store
    leaves its payload. -/
theorem scoreTile_eq (q : Vec F S256x512 .bf16) (n : Vec F S256x1 .f32) (e : Vec F S3072x512 .f32) :
    scoreTile q n e = k0_pay1 q n e := by
  unfold scoreTile
  rw [View.canon_unit_zero zero_offsets, View.ld_unit_zero (S := S256x512) zero_offsets,
    View.ld_unit_zero (S := S256x1) zero_offsets, View.ld_unit_zero (S := S3072x512) zero_offsets]

set_option maxHeartbeats 1000000 in
/-- The step on whole staging buffers: the inputs' at `q`, `n`, `e`, the score buffer at anything; it ends with
    the inputs' as they were and the score buffer at `scoreTile q n e`. -/
theorem step (c : Dev nD) (E : Set ℕ) (i : grid0.Coords)
    (arg1 : Memref sig .tc .vmem S256x512 .bf16) (harg1 : arg1.IsWhole)
    (arg2 : Memref sig .tc .vmem S256x1 .f32) (harg2 : arg2.IsWhole)
    (arg3 : Memref sig .tc .vmem S3072x512 .f32) (harg3 : arg3.IsWhole)
    (arg4 : Memref sig .tc .vmem S256x3072 .f32) (harg4 : arg4.IsWhole)
    (q : Vec F S256x512 .bf16) (n : Vec F S256x1 .f32) (e : Vec F S3072x512 .f32) (K : PUnit → sProp 𝕄) :
    iprop(owns (c : Thread nD τ) arg1 fullShare q ∗ owns (c : Thread nD τ) arg2 fullShare n
        ∗ owns (c : Thread nD τ) arg3 fullShare e ∗ (∃ d, owns (c : Thread nD τ) arg4 fullShare d)
        ∗ (iprop(owns (c : Thread nD τ) arg1 fullShare q ∗ owns (c : Thread nD τ) arg2 fullShare n
            ∗ owns (c : Thread nD τ) arg3 fullShare e ∗ owns (c : Thread nD τ) arg4 fullShare (scoreTile q n e)) -∗ K ⟨⟩))
      ⊢ wp frame (wpE (defs₀ (F := F)) Variants.none c none) E
          (cc0__transe_kernel i arg1 harg1 arg2 harg2 arg3 harg3 arg4 harg4) K := by
  simp only [cc0__transe_kernel_eq_skeleton]; unfold cc0__transe_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (scoreTile_cover _)

end Cert.KernelIdeal.Tile

end
-- ==== Proof.ScoreAt.lean ====
/-
  The score, as one function of a query row and an entity row, and one grid step's arithmetic read at an index.

  For a query row q (512 numbers) whose squared norm is n, and an entity row e,
      score n q e = -sqrt (max (n - 2 * <q, e> + <e, e>) eps)
  on the extended reals: <x, y> is the sum over the 512 coordinates of the products, 2 and eps are the program's
  literals (kept as their words: both programs hold the same two words), sqrt is the extended-real square root.
  This is minus the Euclidean distance |q - e| written through |q|^2 - 2<q,e> + |e|^2, floored at eps before the root.

  A grid step computes, from a query tile, the column of query norms and a tile of 3072 entity rows, a 256 x 3072
  tile whose entry (b, j) is the score of query row b against entity row j of the tile (`tile_apply`). Entry (b, j)
  reads the entity tile in row j only: this is what lets the last step, whose tile overhangs the table, be stated on
  the rows inside the table alone.
-/
import proofs.«130269_j11879879541069_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Score

open Idealize.ShloMosaic Idealize.ShloMosaic.ValueIdx
open Cert.KernelIdeal Cert.KernelIdeal.Gen

/-- The score of a query row `q` of squared norm `n` against an entity row `e`. -/
def score (n : EReal) (q e : Fin 512 → EReal) : EReal :=
  -Ideal.sqrt (max (n - Ideal.ofBits .f32 0x40000000#32 * (∑ k : Fin 512, q k * e k) + ∑ k : Fin 512, e k * e k)
    (Ideal.ofBits .f32 0x2B8CBCCC#32))

/-- The dimension record of the step's product: query tile times the transposed entity tile. -/
abbrev QE : DotDims S256x512 S3072x512 S256x3072 := dot_S256x512_S3072x512_S256x3072_1_1_0_0_n_n

theorem QE_lhs0 (i : S256x3072.Idx) (c : QE.contr.Idx) : (QE.lhsIdx i c 0).val = (i 0).val := by
  unfold DotDims.lhsIdx
  rw [dif_neg (show ¬(0 : Fin S256x512.rank) ∈ QE.lhsBatch by decide),
    dif_pos (show (0 : Fin S256x512.rank) ∈ QE.lhsNonContracting by decide)]
  rfl
theorem QE_lhs1 (i : S256x3072.Idx) (c : QE.contr.Idx) : (QE.lhsIdx i c 1).val = (c ⟨0, by decide⟩).val :=
  QE.lhsIdx_val_of_single rfl i c
theorem QE_rhs0 (i : S256x3072.Idx) (c : QE.contr.Idx) : (QE.rhsIdx i c 0).val = (i 1).val := by
  unfold DotDims.rhsIdx
  rw [dif_neg (show ¬(0 : Fin S3072x512.rank) ∈ QE.rhsBatch by decide),
    dif_pos (show (0 : Fin S3072x512.rank) ∈ QE.rhsNonContracting by decide)]
  rfl
theorem QE_rhs1 (i : S256x3072.Idx) (c : QE.contr.Idx) : (QE.rhsIdx i c 1).val = (c ⟨0, by decide⟩).val :=
  QE.rhsIdx_val_of_single rfl i c

/-- The product into a zero accumulator, at (b, j): the inner product of query row b with entity row j. -/
theorem dot_at (q : FVec Ideal S256x512 .bf16) (e : FVec Ideal S3072x512 .bf16) (b : Fin 256) (j : Fin 3072) :
    matmul QE none q e (constant (F := Ideal) S256x3072 .f32 0x00000000#32) (ix2 b j)
      = ∑ k : Fin 512, q (ix2 b k) * e (ix2 j k) := by
  simp only [matmul]
  rw [Ideal.matmul_constant_zero_apply, ← Equiv.sum_comp (contrEquiv1 QE 512 rfl rfl).symm]
  refine Finset.sum_congr rfl fun k _ => ?_
  have hk := contrEquiv1_symm_val QE 512 rfl rfl k
  have el : QE.lhsIdx (ix2 b j) ((contrEquiv1 QE 512 rfl rfl).symm k) = ix2 b k := funext fun a => Fin.ext (by
    match a with
    | ⟨0, _⟩ => exact QE_lhs0 _ _
    | ⟨1, _⟩ => exact (QE_lhs1 _ _).trans hk)
  have er : QE.rhsIdx (ix2 b j) ((contrEquiv1 QE 512 rfl rfl).symm k) = ix2 j k := funext fun a => Fin.ext (by
    match a with
    | ⟨0, _⟩ => exact QE_rhs0 _ _
    | ⟨1, _⟩ => exact (QE_rhs1 _ _).trans hk)
  rw [el, er]

/-- The lane sum of a tile, at row j: the sum of that row. -/
theorem rowsum_at (x : FVec Ideal S3072x512 .f32) (j : Fin 3072) (hφ : FKind.Formats .f32)
    (hacc : (0x00000000#32 : BitVec 32) = 0x00000000#32) :
    multiReduction (F := Ideal) .add [1] S3072 x 0x00000000#32 reduces_S3072x512_S3072 hφ hacc (ix1 j)
      = ∑ k : Fin 512, x (ix2 j k) := by
  refine (Ideal.multiReduction_add_single x 0x00000000#32 reduces_S3072x512_S3072 hφ hacc (ix1 j)).trans ?_
  exact Finset.sum_congr rfl fun k _ => congrArg x (funext fun a => Fin.ext (by
    match a with
    | ⟨0, _⟩ => rfl
    | ⟨1, _⟩ => rfl))

/-- A column broadcast over the lanes reads the column. -/
theorem col_at {α : Type} (v : S256x1.Idx → α) (b : Fin 256) (j : Fin 3072) :
    broadcastTo S256x3072 v broadcasts_S256x1_S256x3072 (ix2 b j) = v (ix2 b (0 : Fin 1)) :=
  broadcastTo_apply v _ _ _ (fun a => by
    match a with
    | ⟨0, _⟩ => show b.val = if (256 : Nat) = 1 then 0 else b.val; rw [if_neg (by decide)]
    | ⟨1, _⟩ => show 0 = if (1 : Nat) = 1 then 0 else j.val; rw [if_pos rfl])

/-- One grid step's arithmetic at (b, j): the score of query row b against the tile's entity row j. -/
theorem tile_apply (q : FVec Ideal S256x512 .bf16) (n : FVec Ideal S256x1 .f32) (e : FVec Ideal S3072x512 .f32)
    (b : Fin 256) (j : Fin 3072) :
    k0_pay1 (F := Ideal) q n e (ix2 b j)
      = score (n (ix2 b (0 : Fin 1))) (fun k => q (ix2 b k)) (fun k => e (ix2 j k)) := by
  unfold k0_pay1 score
  simp only [shapeCast_self]
  show Ideal.ofBits .f32 0x00000000#32 - Ideal.sqrt (max (
      broadcastTo S256x3072 n broadcasts_S256x1_S256x3072 (ix2 b j)
        - Ideal.ofBits .f32 0x40000000#32
          * matmul QE none q (truncf .bf16 e bitsLt_bf16_f32) (constant (F := Ideal) S256x3072 .f32 0x00000000#32) (ix2 b j)
        + broadcastTo S256x3072 (shapeCast S1x3072
            (multiReduction (F := Ideal) .add [1] S3072 (mulf e e) 0x00000000#32 reduces_S3072x512_S3072 (.inl rfl) rfl)
            shapeCasts_S3072_S1x3072) broadcasts_S1x3072_S256x3072 (ix2 b j))
      (Ideal.ofBits .f32 0x2B8CBCCC#32)) = _
  rw [col_at, dot_at, broadcastTo_1b_ab_apply, shapeCast_a_1a_apply, rowsum_at, Ideal.ofBits_zero_f32, zero_sub]
  rfl

end Cert.Score

end
-- ==== Proof.RunIdeal.lean ====
/-
  The idealized scoring kernel, run: it terminates, faults nowhere, leaves every argument array as it was, and
  its score array ends at what the library computes from the steps' score tiles.

  The grid has 66 steps over tiles of 3072 entity rows, and 66 * 3072 = 202752 exceeds the table's 200000 rows:
  the last step's entity tile has only its first 320 rows (200000 - 65 * 3072) inside the table, and the other rows
  of its staging buffer hold numbers nothing names. The step computes scores from them too, into the columns of the
  score tile that lie past the score array's last column, and the cut write-back drops exactly those columns.
  So what matters is that the KEPT columns do not depend on the unnamed rows: score (b, j) reads entity row j only
  (`Cert.Score.tile_apply`), and a kept column j is a row inside the table (the two windows are cut alike:
  `cut_alike`). That is `kept_columns`, and it lets the proof data name the score tile of step `t` once, with the
  unnamed rows replaced by zeros (`entTile`, `scores`).
-/
import proofs.«130269_j11879879541069_2_alg».proof.Proof.TileIdeal
import proofs.«130269_j11879879541069_2_alg».proof.Proof.ScoreAt

set_option maxRecDepth 16384

noncomputable section

namespace Cert.KernelIdeal.Run

open Cert.KernelIdeal Cert.KernelIdeal.Gen Cert.KernelIdeal.Tile Cert.Score
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The kept columns of a score tile -/

/-- At every grid point the score tile keeps as many columns as the entity tile has rows inside the table, and an
    entity row is never cut along its 512 coordinates. -/
theorem cut_alike : ∀ t : Fin cfg0.N, win0_3.xsize (grid0.coords t) 1 = win0_2.xsize (grid0.coords t) 0
      ∧ win0_2.xsize (grid0.coords t) 1 = 512 :=
  (by decide +kernel : ∀ t : Fin grid0.N, win0_3.xsize (grid0.coords t) 1 = win0_2.xsize (grid0.coords t) 0
      ∧ win0_2.xsize (grid0.coords t) 1 = 512)

/-- Two fillings of a block agree wherever the transfer moves the index. -/
theorem fill_indep {α : Type} (i : grid0.Coords) (d d' : S3072x512.Idx → α) (g : (win0_2.xblock i).Idx → α)
    (x : S3072x512.Idx) (h : win0_2.moved i x = true) : win0_2.fill i d g x = win0_2.fill i d' g x := by
  unfold Pipeline.Window.fill; rw [dif_pos h, dif_pos h]

/-- The kept columns of a step's score tile do not depend on what fills the entity buffer past the table's end. -/
theorem kept_columns (t : Fin cfg0.N) (q : FVec Ideal S256x512 .bf16) (n : FVec Ideal S256x1 .f32)
    (d d' : S3072x512.Idx → EReal) (g : (win0_2.xblock (grid0.coords t)).Idx → EReal) :
    win0_3.cut (grid0.coords t) (k0_pay1 (F := Ideal) q n (win0_2.fill (grid0.coords t) d g))
      = win0_3.cut (grid0.coords t) (k0_pay1 (F := Ideal) q n (win0_2.fill (grid0.coords t) d' g)) := by
  funext y
  have hy : (y 1).val < win0_2.xsize (grid0.coords t) 0 := by
    rw [← (cut_alike t).1]; exact (y 1).isLt
  show k0_pay1 (F := Ideal) q n _ (win0_3.xinj (grid0.coords t) y) = k0_pay1 (F := Ideal) q n _ (win0_3.xinj (grid0.coords t) y)
  generalize hx : (win0_3.xinj (grid0.coords t) y : S256x3072.Idx) = x
  have hx1 : (x 1).val = (y 1).val := by rw [← hx]
  obtain ⟨b, j, rfl⟩ : ∃ (b : Fin 256) (j : Fin 3072), x = ix2 b j := ⟨x 0, x 1, eq_ix2 x⟩
  rw [tile_apply, tile_apply]
  congr 1
  funext k
  refine fill_indep _ _ _ _ _ ((win0_2.moved_iff _ _).mpr fun a => ?_)
  match a with
  | ⟨0, _⟩ => exact (show j.val < _ from hx1 ▸ hy)
  | ⟨1, _⟩ =>
    have h512 := (cut_alike t).2
    show k.val < win0_2.xsize (grid0.coords t) 1
    have hk := k.isLt
    omega

/-! ## The proof data -/

/-- The entity tile of step `t`: its rows inside the table as the fetch reads them, zeros on the others. -/
def entTile (c : Dev nD) (t : Fin cfg0.N) : S3072x512.Idx → Elt Ideal .f32 :=
  win0_2.fill (grid0.coords t) (fun _ => (0 : EReal)) (iblk m c 2 t)

/-- The score tile of step `t`: the step's arithmetic of the query tile, the query norms and `entTile`. -/
def scores (c : Dev nD) (t : Fin cfg0.N) : S256x3072.Idx → Elt Ideal .f32 :=
  k0_pay1 (F := Ideal) (iblk m c 0 t) (iblk m c 1 t) (entTile m c t)

/-- The proof data on core `c`: the arrays as the region finds them; after step `t` the query tile and the norms at
    their blocks, the entity buffer at `entTile`, the score buffer at `scores`; the class invariant; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => entTile m c t
    | ⟨3, _⟩ => scores m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = entTile m c t := by dsimp only [dats]
theorem after_3 (c : Dev nD) (t : Fin cfg0.N) : (dats m 0 c).after 3 t = scores m c t := by dsimp only [dats]

/-- The resident tiles are found at their blocks at every step, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- The entity buffer is fetched at every step: its rows inside the table, `d` on the others. -/
theorem before_2 (c : Dev nD) (t : Fin cfg0.N) (d) :
    (dats m 0 c).before 2 t d = win0_2.fill (grid0.coords t) d (iblk m c 2 t) := by
  unfold Dat.before; rw [if_pos (fetch0_2 t)]; rfl
/-- The score buffer is written back at every step, so every step finds it at anything. -/
theorem before_3 (c : Dev nD) (t : Fin cfg0.N) (d) : (dats m 0 c).before 3 t d = d :=
  (dats m 0 c).before_out_reset 3 rfl t (by
    by_cases h0 : t.val = 0
    · exact .inl h0
    · exact .inr ⟨h0, flush0_3 _⟩) d

/-! ## The step at a grid point -/

/-- What a step is called with at grid point `t`, window by window, -/
def stepPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back: the two cut windows stated on the part their transfers move. -/
def stepPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t))))
    ∗ (∃ d, owns (c : Thread nD τ) (st0_3 t) fullShare
        (win0_3.fill (grid0.coords t) d (win0_3.cut (grid0.coords t) ((dats m 0 c).after 3 t)))))

/-- The step at any grid point: the score buffer ends at the step's tile of whatever the entity buffer held, whose
    kept columns are `scores`'s (`kept_columns`). -/
theorem step_at (c : Dev nD) (t : Fin cfg0.N) :
    stepPre m c t ⊢ wp frame (wpE (defs₀ (F := Ideal)) Variants.none c none) Set.univ (bodyAt0 t) (fun _ => stepPost m c t) := by
  unfold stepPre stepPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (step (F := Ideal) c Set.univ (grid0.coords t) _ _ _ _ _ _ _ _ (iblk m c 0 t) (iblk m c 1 t)
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    have h : win0_2.cut (grid0.coords t) (entTile m c t) = iblk m c 2 t := win0_2.cut_fill _ _ _
    rw [h]; iexact H2
  · iexists (scoreTile (iblk m c 0 t) (iblk m c 1 t) (win0_2.fill (grid0.coords t) d2 (iblk m c 2 t)))
    have h : win0_3.fill (grid0.coords t)
        (scoreTile (iblk m c 0 t) (iblk m c 1 t) (win0_2.fill (grid0.coords t) d2 (iblk m c 2 t)))
        (win0_3.cut (grid0.coords t) (scores m c t))
        = scoreTile (iblk m c 0 t) (iblk m c 1 t) (win0_2.fill (grid0.coords t) d2 (iblk m c 2 t)) := by
      refine win0_3.fill_congr_cut (grid0.coords t) ?_
      rw [scoreTile_eq]
      exact kept_columns t _ _ _ _ _
    rw [h]; iexact H3

/-- The step at every grid point. -/
theorem body_obligation (c : Dev nD) :
    BodyObligationLoose (dats m 0 c) (defs₀ (F := Ideal)) Variants.none () Set.univ := fun t => by
  rw [bigSep_W0, bigSep_W0]
  exact step_at m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the six argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Run

end
-- ==== Proof.AllScores.lean ====
/-
  All the scores, as one function of the query rows and the entity table.

  Entry (b, r) of the 256 x 200000 result is the score (`Cert.Score.score`) of query row b, with its squared norm
  (the sum of the squares of its 512 coordinates), against row r of the entity table. Both programs are shown to
  end at this function of the same query rows and the same table.
-/
import proofs.«130269_j11879879541069_2_alg».proof.Proof.ScoreAt

noncomputable section

namespace Cert.Score

open Idealize.ShloMosaic Idealize.ShloMosaic.ValueIdx

/-- The squared norm of a row. -/
def sqnorm (x : Fin 512 → EReal) : EReal := ∑ k : Fin 512, x k * x k

/-- The score of query row `b` against entity row `r`. -/
def scoreOf (cond : (⟨2, ![256, 512]⟩ : Shape).Idx → EReal) (ent : (⟨2, ![200000, 512]⟩ : Shape).Idx → EReal)
    (b : Fin 256) (r : Fin 200000) : EReal :=
  score (sqnorm fun k => cond (ix2 b k)) (fun k => cond (ix2 b k)) (fun k => ent (ix2 r k))

/-- The whole result. -/
def allScores (cond : (⟨2, ![256, 512]⟩ : Shape).Idx → EReal) (ent : (⟨2, ![200000, 512]⟩ : Shape).Idx → EReal) :
    (⟨2, ![256, 200000]⟩ : Shape).Idx → EReal :=
  fun i => scoreOf cond ent ⟨(i 0).val, (i 0).isLt⟩ ⟨(i 1).val, (i 1).isLt⟩

end Cert.Score

end
-- ==== Proof.ValueIdeal.lean ====
/-
  The idealized kernel's score array, after the run, holds all the scores.

  The host prefix of @main gathers one entity row and one relation row per query and adds them (the query rows,
  `queries`), hands the kernel those rows (rounded to a shorter float format, which changes nothing on the extended
  reals) and the column of their squared norms (a host sum from the zero word). Step `t` of the grid reads entity rows
  3072 t .. 3072 t + 3071 (those below 200000) and writes columns 3072 t .. of the result. So what step `t` writes back
  is block `t` of ONE function of the arguments — entry (b, r) the score of query row b against table row r — and every
  column r < 200000 lies in the block of step r / 3072: the array ends at `Cert.Score.allScores`.
-/
import proofs.«130269_j11879879541069_2_alg».proof.Proof.RunIdeal
import proofs.«130269_j11879879541069_2_alg».proof.Proof.AllScores
import Idealize.ShloMosaic.Lib.StableHlo.Run
import Idealize.ShloMosaic.Lib.Pipeline.Value

set_option maxRecDepth 16384

noncomputable section

namespace Cert.KernelIdeal.Scores

open Cert.KernelIdeal Cert.KernelIdeal.Gen Cert.KernelIdeal.Tile Cert.KernelIdeal.Run Cert.Score
open Idealize.ShloMosaic Idealize.ShloMosaic.TcCoe Idealize.ShloMosaic.Tactic Idealize.ShloMosaic.ValueIdx
open Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## What the region finds in the two host-computed windows -/

/-- The query rows: per query the gathered entity row plus the gathered relation row (a negative index counted
    from the table's end, as the host's gather is fed). -/
def queries (x0 x1 : IVec S256 32) (x4 : FVec Ideal S200000x512 .f32) (x5 : FVec Ideal S500x512 .f32) :
    FVec Ideal S256x512 .f32 :=
  addf
    (Host.gather gather_S200000x512_S256x1_S256x512_1_0_n_n_0_1_1512 x4
      (broadcastInDim S256x1 ![0] bcast_S256_S256x1_0
        (select (cmpi .slt x0 (broadcastInDim S256 ![] bcast_S_S256 (constantI S_ 32 0#32)))
          (addi x0 (broadcastInDim S256 ![] bcast_S_S256 (constantI S_ 32 200000#32))) x0)))
    (Host.gather gather_S500x512_S256x1_S256x512_1_0_n_n_0_1_1512 x5
      (broadcastInDim S256x1 ![0] bcast_S256_S256x1_0
        (select (cmpi .slt x1 (broadcastInDim S256 ![] bcast_S_S256 (constantI S_ 32 0#32)))
          (addi x1 (broadcastInDim S256 ![] bcast_S_S256 (constantI S_ 32 500#32))) x1)))

/-- The query rows of core `c`'s arguments. -/
abbrev Q (c : Dev nD) : FVec Ideal S256x512 .f32 :=
  queries (m ((c : Thread nD τ).loc main_arg0)) (m ((c : Thread nD τ).loc main_arg1)) (m ((c : Thread nD τ).loc main_arg4)) (m ((c : Thread nD τ).loc main_arg5))

set_option maxHeartbeats 2000000 in
/-- The query-tile window's array: the query rows in the shorter format. -/
theorem V_queries (c : Dev nD) :
    (V m c main_v15 : FVec Ideal S256x512 .bf16) = truncf .bf16 (Q m c) bitsLt_bf16_f32 := by
  dsimp only [V, hostOps0]; after_results_simp <;> rfl

set_option maxHeartbeats 2000000 in
/-- The norm window's array: the host's row sums of the squared query rows, as a column. -/
theorem V_norms (c : Dev nD) :
    (V m c main_v18 : FVec Ideal S256x1 .f32) = broadcastInDim S256x1 ![0] bcast_S256_S256x1_0
      (Host.reduceAdd (mulf (Q m c) (Q m c)) (constant (F := Ideal) S_ .f32 0x00000000#32) reducesTo_S256x512_S256_d1 h_S_) := by
  dsimp only [V, hostOps0]; after_results_simp <;> rfl

/-- A host row sum of squares from the zero word, made a column, read at row b: the squared norm of row b. -/
theorem colsum_at (x : FVec Ideal S256x512 .f32) (b : Fin 256) :
    broadcastInDim S256x1 ![0] bcast_S256_S256x1_0
      (Host.reduceAdd (mulf x x) (constant (F := Ideal) S_ .f32 0x00000000#32) reducesTo_S256x512_S256_d1 h_S_) (ix2 b (0 : Fin 1))
      = sqnorm (fun k => x (ix2 b k)) := by
  rw [broadcastInDim_apply _ bcast_S256_S256x1_0 _ (ix2 b (0 : Fin 1)) (ix1 b) (fun a => match a with
    | ⟨0, _⟩ => by show b.val = if (256 : Nat) = 1 then 0 else b.val; rw [if_neg (by decide)])]
  simp only [Host.reduceAdd, Ideal.hostReduceAdd_def]
  rw [Ideal.hostReduceAdd_single reducesTo_S256x512_S256_d1 (by decide), constant_apply, Ideal.ofBits_zero_f32, zero_add]
  unfold sqnorm
  refine Finset.sum_congr rfl fun k _ => ?_
  have hi : ∀ (h : S256x512.Reduces [1] S256), h.lift (ix1 b) k = ix2 b k := fun h =>
    funext fun a => Fin.ext (by match a with | ⟨0, _⟩ => rfl | ⟨1, _⟩ => rfl)
  rw [hi]
  rfl

/-- The norm column's array at row b: the squared norm of query row b. -/
theorem norms_apply (c : Dev nD) (b : Fin 256) :
    (V m c main_v18 : FVec Ideal S256x1 .f32) (ix2 b (0 : Fin 1)) = sqnorm (fun k => Q m c (ix2 b k)) :=
  (congrFun (V_norms m c) (ix2 b (0 : Fin 1))).trans (colsum_at (Q m c) b)

/-- Equal norms and equal rows score alike. -/
theorem score_congr {n n' : EReal} {q q' e e' : Fin 512 → EReal} (hn : n = n') (hq : q = q') (he : e = e') :
    score n q e = score n' q' e' := by subst hn hq he; rfl

/-! ## The windows' index maps over the grid -/

/-- The resident windows sit at block (0, 0); step `t` reads entity block (t, 0) and writes score block (0, t); a score
    block keeps all 256 rows, at most 3072 columns, and exactly the columns below 200000. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_3.xsize (grid0.coords t) 0 = 256
    ∧ win0_3.xsize (grid0.coords t) 1 ≤ 3072
    ∧ t.val * 3072 + win0_3.xsize (grid0.coords t) 1 ≤ 200000
    ∧ (200000 ≤ (t.val + 1) * 3072 → t.val * 3072 + win0_3.xsize (grid0.coords t) 1 = 200000)
    ∧ ((t.val + 1) * 3072 ≤ 200000 → win0_3.xsize (grid0.coords t) 1 = 3072) :=
  (by decide +kernel : ∀ t : Fin grid0.N, _)

/-! ## The blocks, coordinate by coordinate -/

/-- The query tile at (b, k) is query row b's coordinate k. -/
theorem query_at (c : Dev nD) (t : Fin cfg0.N) (b : Fin 256) (k : Fin 512) :
    (iblk m c 0 t : S256x512.Idx → EReal) (ix2 b k) = Q m c (ix2 b k) := by
  obtain ⟨e00, e01, -⟩ := idx_facts t
  unfold iblk
  show V m c main_v15 (((cfg0.win 0).blk t).view.emb (ix2 b k)) = _
  have he : ((cfg0.win 0).blk t).view.emb (ix2 b k) = ix2 b k := by
    funext a; apply Fin.ext
    match a with
    | ⟨0, _⟩ => show win0_0.index t (0 : Fin 2) * 256 + 1 * b.val = b.val; omega
    | ⟨1, _⟩ => show win0_0.index t (1 : Fin 2) * 512 + 1 * k.val = k.val; omega
  rw [he, V_queries]; rfl

/-- The norm column at b is query row b's squared norm. -/
theorem norm_at (c : Dev nD) (t : Fin cfg0.N) (b : Fin 256) :
    (iblk m c 1 t : S256x1.Idx → EReal) (ix2 b (0 : Fin 1)) = sqnorm (fun k => Q m c (ix2 b k)) := by
  obtain ⟨-, -, e10, e11, -⟩ := idx_facts t
  unfold iblk
  show V m c main_v18 (((cfg0.win 1).blk t).view.emb (ix2 b (0 : Fin 1))) = _
  have he : ((cfg0.win 1).blk t).view.emb (ix2 b (0 : Fin 1)) = ix2 b (0 : Fin 1) := by
    funext a; apply Fin.ext
    match a with
    | ⟨0, _⟩ => show win0_1.index t (0 : Fin 2) * 256 + 1 * b.val = b.val; omega
    | ⟨1, _⟩ => show win0_1.index t (1 : Fin 2) * 1 + 1 * 0 = 0; omega
  rw [he]
  exact norms_apply m c b

/-- The entity tile at (j, k), for a row j inside the table, is the table's row 3072 t + j at k. -/
theorem entity_at (c : Dev nD) (t : Fin cfg0.N) (j : Fin 3072) (k : Fin 512)
    (hj : j.val < win0_2.xsize (grid0.coords t) 0) (r : Fin 200000) (hr : r.val = t.val * 3072 + j.val) :
    entTile m c t (ix2 j k) = (m ((c : Thread nD τ).loc main_arg4)) (ix2 r k) := by
  obtain ⟨-, -, -, -, e20, e21, -⟩ := idx_facts t
  have hm : win0_2.moved (grid0.coords t) (ix2 j k) = true := (win0_2.moved_iff _ _).mpr fun a => by
    match a with
    | ⟨0, _⟩ => exact hj
    | ⟨1, _⟩ =>
      have h512 := (cut_alike t).2
      show k.val < win0_2.xsize (grid0.coords t) 1
      have hk := k.isLt
      omega
  unfold entTile Pipeline.Window.fill
  rw [dif_pos hm]
  unfold iblk
  show V m c main_arg4 (((cfg0.win 2).blk t).view.emb _) = _
  rw [V_main_arg4]
  refine congrArg (m ((c : Thread nD τ).loc main_arg4)) (funext fun a => Fin.ext ?_)
  match a with
  | ⟨0, _⟩ => show win0_2.index t (0 : Fin 2) * 3072 + 1 * j.val = r.val; omega
  | ⟨1, _⟩ => show win0_2.index t (1 : Fin 2) * 512 + 1 * k.val = k.val; omega

/-- Step `t`'s score tile at (b, j), for a kept column j: the score of query row b against table row 3072 t + j. -/
theorem score_at (c : Dev nD) (t : Fin cfg0.N) (b : Fin 256) (j : Fin 3072)
    (hj : j.val < win0_2.xsize (grid0.coords t) 0) (r : Fin 200000) (hr : r.val = t.val * 3072 + j.val) :
    scores m c t (ix2 b j) = scoreOf (Q m c) (m ((c : Thread nD τ).loc main_arg4)) b r := by
  unfold scores scoreOf
  exact (tile_apply (iblk m c 0 t) (iblk m c 1 t) (entTile m c t) b j).trans
    (score_congr (norm_at m c t b) (funext fun k => query_at m c t b k) (funext fun k => entity_at m c t j k hj r hr))

/-! ## From the blocks to the array -/

set_option maxHeartbeats 1000000 in
/-- What step `t` writes back is block `t` of `allScores`. -/
theorem flushed_eq (c : Dev nD) (t : Fin cfg0.N) :
    (dats m 0 c).flushed 3 t
      = ((cfg0.win 3).blk t).view.read (Elt Ideal) (allScores (Q m c) (m ((c : Thread nD τ).loc main_arg4))) := by
  show (cfg0.win 3).cut (grid0.coords t) ((dats m 0 c).after 3 t) = _
  rw [after_3]
  obtain ⟨-, -, -, -, -, -, e30, e31, x30, x31, x32, -, -⟩ := idx_facts t
  funext y
  have hy0 : (y 0).val < 256 := by have h := (y 0).isLt; rw [← x30]; exact h
  have hy1' : (y 1).val < win0_3.xsize (grid0.coords t) 1 := (y 1).isLt
  have hy1 : (y 1).val < 3072 := by omega
  have hj : (y 1).val < win0_2.xsize (grid0.coords t) 0 := by rw [← (cut_alike t).1]; exact hy1'
  have hr : t.val * 3072 + (y 1).val < 200000 := by omega
  have hxy : (win0_3.xinj (grid0.coords t) y : S256x3072.Idx) = ix2 (⟨(y 0).val, hy0⟩ : Fin 256) (⟨(y 1).val, hy1⟩ : Fin 3072) :=
    funext fun a => Fin.ext (by match a with | ⟨0, _⟩ => rfl | ⟨1, _⟩ => rfl)
  show scores m c t (win0_3.xinj (grid0.coords t) y) = allScores (Q m c) (m ((c : Thread nD τ).loc main_arg4)) (((cfg0.win 3).blk t).view.emb y)
  generalize hey : (((cfg0.win 3).blk t).view.emb y : S256x200000.Idx) = ey
  have he0 : (ey 0).val = (y 0).val := by
    rw [← hey]; show win0_3.index t (0 : Fin 2) * 256 + 1 * (y 0).val = (y 0).val; omega
  have he1 : (ey 1).val = t.val * 3072 + (y 1).val := by
    rw [← hey]; show win0_3.index t (1 : Fin 2) * 3072 + 1 * (y 1).val = t.val * 3072 + (y 1).val; omega
  refine (congrArg (scores m c t) hxy).trans ?_
  refine (score_at m c t ⟨(y 0).val, hy0⟩ ⟨(y 1).val, hy1⟩ hj ⟨t.val * 3072 + (y 1).val, hr⟩ rfl).trans ?_
  unfold allScores
  exact congrArg₂ (scoreOf (Q m c) (m ((c : Thread nD τ).loc main_arg4))) (Fin.ext he0.symm) (Fin.ext he1.symm)

/-- A column is in step `t`'s block iff each coordinate is in the block's kept range on its axis. -/
theorem mem_blk (t : Fin cfg0.N) (i : S256x200000.Idx) :
    i ∈ ((cfg0.win 3).blk t).view.set ↔ ∀ a : Fin 2, win0_3.index t a * S256x3072.size a ≤ (i a).val
      ∧ (i a).val < win0_3.index t a * S256x3072.size a + win0_3.xsize (grid0.coords t) a := by
  show i ∈ ((View.whole main_v19).slice (win0_3.rect t)).set ↔ _
  rw [View.set_slice_whole, Rect.mem_set_unit]
  exact Iff.rfl

/-- Every entry of the result is written by some step: column r by step r / 3072. -/
theorem covered (i : S256x200000.Idx) :
    ∃ t : Fin cfg0.N, (cfg0.win 3).flush t = true ∧ i ∈ ((cfg0.win 3).blk t).view.set := by
  have hi0 : (i 0).val < 256 := (i 0).isLt
  have hi1 : (i 1).val < 200000 := (i 1).isLt
  have hN : grid0.N = 66 := N_0
  obtain ⟨t, ht⟩ : ∃ t : Fin cfg0.N, t.val = (i 1).val / 3072 :=
    ⟨⟨(i 1).val / 3072, by show (i 1).val / 3072 < grid0.N; rw [hN]; omega⟩, rfl⟩
  obtain ⟨-, -, -, -, -, -, e30, e31, x30, x31, x32, x33, x34⟩ := idx_facts t
  refine ⟨t, flush0_3 t, (mem_blk t i).mpr fun a => ?_⟩
  match a with
  | ⟨0, _⟩ =>
    show win0_3.index t (0 : Fin 2) * 256 ≤ (i 0).val ∧ (i 0).val < win0_3.index t (0 : Fin 2) * 256 + win0_3.xsize (grid0.coords t) 0
    omega
  | ⟨1, _⟩ =>
    show win0_3.index t (1 : Fin 2) * 3072 ≤ (i 1).val ∧ (i 1).val < win0_3.index t (1 : Fin 2) * 3072 + win0_3.xsize (grid0.coords t) 1
    by_cases hlast : 200000 ≤ (t.val + 1) * 3072
    · have := x33 hlast; omega
    · have := x34 (by omega); omega

/-- The score array after the run. -/
theorem final (c : Dev nD) : (dats m 0 c).arrAt 3 cfg0.N = allScores (Q m c) (m ((c : Thread nD τ).loc main_arg4)) :=
  (dats m 0 c).arrAt_eq_of_cover 3 _ (fun t _ => flushed_eq m c t) covered

/-! ## The run, read -/

/-- Every weakly fair execution of @main terminates with the score array at `allScores` of the query rows and the
    entity table, and the six argument arrays as launched. -/
theorem run : θ_run defs (onTc (τ := τ) (main (F := Ideal))) ⟨m, fun _ => 0, ρ⟩ (fun r => ∀ c : Dev nD,
      r.2.mem ((c.tc : Thread nD τ).loc main_v19) = allScores (Q m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c)⟩)
    (run_main m ρ)

end Cert.KernelIdeal.Scores

end
-- ==== Proof.RefScores.lean ====
/-
  The reference computes all the scores.

  Its last stage, read at an index (b, r) one operation at a time, is
      -sqrt (max ((0 + sum_k c(b,k) c(b,k)) - 2 * sum_k c(b,k) E(r,k) + (0 + sum_k E(r,k) E(r,k))) eps)
  where c is its stage of query rows (the two gathered rows added) and E the entity table: the score of query row b,
  with its squared norm, against row r, once the zero the host's sums start from is dropped.
-/
import proofs.«130269_j11879879541069_2_alg».proof.Proof.AllScores
import proofs.«130269_j11879879541069_2_alg».proof.Proof.Gen.ReferenceIdeal.Read

noncomputable section

namespace Cert.ReferenceIdeal.Scores

open Idealize.ShloMosaic Idealize.ShloMosaic.ValueIdx
open Cert.ReferenceIdeal Cert.ReferenceIdeal.Read Cert.Score

/-- The reference's result is `allScores` of its query rows and the entity table. -/
theorem result_eq (x0 x1 : (⟨S256, .i32⟩ : BufTy).Contents (Elt Ideal)) (x4 : (⟨S200000x512, .f32⟩ : BufTy).Contents (Elt Ideal))
    (x5 : (⟨S500x512, .f32⟩ : BufTy).Contents (Elt Ideal)) :
    val_main_v31 (F := Ideal) x0 x1 x4 x5 = allScores (val_main_v14 (F := Ideal) x0 x1 x4 x5) x4 := by
  funext i
  have e16 : idx_main_v16 (idx_main_v17 (idx_main_v23 i)) = fun k => ix2 ⟨(i 0).val, (i 0).isLt⟩ k :=
    funext fun k => funext fun a => Fin.ext (by match a with | ⟨0, _⟩ => rfl | ⟨1, _⟩ => rfl)
  have el : lidx_main_v20 i = fun k => ix2 ⟨(i 0).val, (i 0).isLt⟩ k :=
    funext fun k => funext fun a => Fin.ext (by match a with | ⟨0, _⟩ => rfl | ⟨1, _⟩ => rfl)
  have er : ridx_main_v20 i = fun k => ix2 ⟨(i 1).val, (i 1).isLt⟩ k :=
    funext fun k => funext fun a => Fin.ext (by match a with | ⟨0, _⟩ => rfl | ⟨1, _⟩ => rfl)
  have e19 : idx_main_v19 (idx_main_v25 (idx_main_v26 i)) = fun k => ix2 ⟨(i 1).val, (i 1).isLt⟩ k :=
    funext fun k => funext fun a => Fin.ext (by match a with | ⟨0, _⟩ => rfl | ⟨1, _⟩ => rfl)
  rw [val_main_v31_apply, val_main_v30_apply, val_main_v29_apply, val_main_v27_apply, val_main_v24_apply,
    val_main_v23_apply, val_main_v17_apply, val_main_v16_apply, val_main_v22_apply, val_main_v21_apply,
    val_main_cst_4_apply, val_main_v20_apply, val_main_v26_apply, val_main_v25_apply, val_main_v19_apply,
    val_main_v28_apply, val_main_cst_5_apply, val_main_cst_apply, val_main_cst_3_apply]
  simp only [e16, el, er, e19, val_main_v15_apply, val_main_v18_apply, Ideal.hostNegf_def, Ideal.negf_def,
    Ideal.hostUnary_sqrt_def, Ideal.maximumf_def, Ideal.addf_def, Ideal.subf_def, Ideal.mulf_def, Ideal.ofBits_def,
    Ideal.ofBits_zero_f32, zero_add]
  rfl

end Cert.ReferenceIdeal.Scores

end
-- ==== Proof.lean ====
/-
  Scoring 256 queries against a table of 200000 entities: the tiled kernel and the plain reference end with the same
  scores on the extended reals.

  Both programs form, per query, a query row q_b (a gathered entity row plus a gathered relation row, 512
  coordinates) and score it against every row e_r of the entity table by
      score(b, r) = -sqrt (max (|q_b|^2 - 2 <q_b, e_r> + |e_r|^2) eps),
  minus the Euclidean distance written through the three inner products and floored before the root. The reference
  does it with one 256 x 200000 product and two row sums. The kernel hands the query rows (in a shorter float
  format: the identity on the extended reals) and their squared norms to a grid of 66 steps; step t takes entity
  rows 3072 t .. 3072 t + 3071, forms their squared norms and their products with the query rows, and writes
  columns 3072 t .. of the result. The sums are finite sums of the same products, and nothing is reassociated
  beyond that, so no input needs to be finite: the precondition is never opened.

  The one delicate point is the last step: 66 * 3072 = 202752 > 200000, so its entity tile has 320 rows inside the
  table and 2752 rows of numbers nothing names, and its score tile has as many columns past the result's end. A
  score column reads its own entity row only, and the write-back keeps exactly the columns inside the result.

  The claims: the word-level kernel's frame (its score buffer's contents never named: `Cert.Kernel.Run.frame`); the
  idealized kernel's frame and value (`Cert.KernelIdeal.Scores.run`); the reference's run read back one operation at
  a time (`Cert.ReferenceIdeal.Scores.result_eq`); the idealization rewrote nothing, so its conjunct is `True`.
-/
import proofs.«130269_j11879879541069_2_alg».proof.Defs
import proofs.«130269_j11879879541069_2_alg».proof.Proof.FrameWord
import proofs.«130269_j11879879541069_2_alg».proof.Proof.ValueIdeal
import proofs.«130269_j11879879541069_2_alg».proof.Proof.RefScores
import proofs.«130269_j11879879541069_2_alg».proof.Proof.Gen.Pre_finite_inputs
import proofs.«130269_j11879879541069_2_alg».proof.Proof.Gen.ReferenceIdeal.Run
import proofs.«130269_j11879879541069_2_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Run.frame (F := Bits) m ρ

/-- So does the idealized kernel. -/
theorem frame_ideal : Cert.frame_KernelIdeal := fun m ρ _ => Cert.KernelIdeal.Run.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with `allScores` of the same query rows and the same entity table: the kernel by its
    blocks, the reference by its stages; the two programs' query rows are one term of the arguments. -/
theorem algebraic : Cert.algebraic_KernelIdeal_ReferenceIdeal := by
  intro m ρ m' ρ' _ hagree
  refine ⟨fun c => Cert.Score.allScores (Cert.KernelIdeal.Scores.Q m c)
      (m ((c.tc : Thread Cert.KernelIdeal.nD Cert.KernelIdeal.τ).loc Cert.KernelIdeal.main_arg4)),
    Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.Scores.result_eq,
    (hagree c).1, (hagree c).2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
